-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128x128 : Shape := ⟨4, ![4, 64, 128, 128]⟩
abbrev S_ : Shape := ⟨0, ![]⟩

class Facts : Prop where
  bcast_S_S4x64x128x128 : S_.BroadcastsInDim S4x64x128x128 (![] : Fin 0 → Fin S4x64x128x128.rank)
  reducesTo_S4x64x128x128_S_d0_1_2_3 : S4x64x128x128.ReducesTo [0, 1, 2, 3] S_
  h_S_ : 0 < S_.numel

variable [Facts]

def fn {F : FTy → Type} [FloatOps F] (main_arg0 : FVec F S4x64x128x128 .f32) (main_arg1 : FVec F S4x64x128x128 .f32) : IVec S_ 1 :=
  let main_v0 : FVec F S4x64x128x128 .f32 := Host.absf main_arg0
  let main_cst : FVec F S_ .f32 := constant S_ .f32 0x7F800000#32
  let main_v1 : FVec F S4x64x128x128 .f32 := broadcastInDim S4x64x128x128 ![] bcast_S_S4x64x128x128 main_cst
  let main_v2 : IVec S4x64x128x128 1 := cmpf .olt main_v0 main_v1
  let main_c : IVec S_ 1 := constantI S_ 1 1#1
  let main_v3 : IVec S_ 1 := (fun x v => Host.reduce IntOp.andi x v reducesTo_S4x64x128x128_S_d0_1_2_3 h_S_) main_v2 main_c
  let main_v4 : FVec F S4x64x128x128 .f32 := Host.absf main_arg1
  let main_cst_0 : FVec F S_ .f32 := constant S_ .f32 0x7F800000#32
  let main_v5 : FVec F S4x64x128x128 .f32 := broadcastInDim S4x64x128x128 ![] bcast_S_S4x64x128x128 main_cst_0
  let main_v6 : IVec S4x64x128x128 1 := cmpf .olt main_v4 main_v5
  let main_c_1 : IVec S_ 1 := constantI S_ 1 1#1
  let main_v7 : IVec S_ 1 := (fun x v => Host.reduce IntOp.andi x v reducesTo_S4x64x128x128_S_d0_1_2_3 h_S_) main_v6 main_c_1
  let main_v8 : IVec S_ 1 := andi main_v3 main_v7
  main_v8
-- ==== Kernel.lean ====
abbrev S4x64x128x128 : Shape := ⟨4, ![4, 64, 128, 128]⟩
abbrev S_ : Shape := ⟨0, ![]⟩
abbrev S4x64x130x130 : Shape := ⟨4, ![4, 64, 130, 130]⟩
abbrev S4x64x1x128x128 : Shape := ⟨5, ![4, 64, 1, 128, 128]⟩
abbrev S4x64x9x128x128 : Shape := ⟨5, ![4, 64, 9, 128, 128]⟩
abbrev S4x576x16384 : Shape := ⟨3, ![4, 576, 16384]⟩
abbrev S4x64x16384x9 : Shape := ⟨4, ![4, 64, 16384, 9]⟩
abbrev S256x16384x9 : Shape := ⟨3, ![256, 16384, 9]⟩
abbrev S4x2048x9 : Shape := ⟨3, ![4, 2048, 9]⟩
abbrev S4x2048x1 : Shape := ⟨3, ![4, 2048, 1]⟩

abbrev nBuf : Space → Nat
  | .hbm => 56
  | .vmem => 8
  | .smem => 0
  | _ => 0

abbrev bufTy : (tb : Table) → Fin (tcTables nBuf tb) → BufTy
  | .hbm, ⟨0, _⟩ => ⟨S4x64x128x128, .f32⟩
  | .hbm, ⟨1, _⟩ => ⟨S4x64x128x128, .f32⟩
  | .hbm, ⟨2, _⟩ => ⟨S_, .i32⟩
  | .hbm, ⟨3, _⟩ => ⟨S_, .f32⟩
  | .hbm, ⟨4, _⟩ => ⟨S4x64x130x130, .f32⟩
  | .hbm, ⟨5, _⟩ => ⟨S4x64x128x128, .f32⟩
  | .hbm, ⟨6, _⟩ => ⟨S4x64x128x128, .f32⟩
  | .hbm, ⟨7, _⟩ => ⟨S4x64x128x128, .f32⟩
  | .hbm, ⟨8, _⟩ => ⟨S4x64x128x128, .f32⟩
  | .hbm, ⟨9, _⟩ => ⟨S4x64x128x128, .f32⟩
  | .hbm, ⟨10, _⟩ => ⟨S4x64x128x128, .f32⟩
  | .hbm, ⟨11, _⟩ => ⟨S4x64x128x128, .f32⟩
  | .hbm, ⟨12, _⟩ => ⟨S4x64x128x128, .f32⟩
  | .hbm, ⟨13, _⟩ => ⟨S4x64x128x128, .f32⟩
  | .hbm, ⟨14, _⟩ => ⟨S4x64x1x128x128, .f32⟩
  | .hbm, ⟨15, _⟩ => ⟨S4x64x1x128x128, .f32⟩
  | .hbm, ⟨16, _⟩ => ⟨S4x64x1x128x128, .f32⟩
  | .hbm, ⟨17, _⟩ => ⟨S4x64x1x128x128, .f32⟩
  | .hbm, ⟨18, _⟩ => ⟨S4x64x1x128x128, .f32⟩
  | .hbm, ⟨19, _⟩ => ⟨S4x64x1x128x128, .f32⟩
  | .hbm, ⟨20, _⟩ => ⟨S4x64x1x128x128, .f32⟩
  | .hbm, ⟨21, _⟩ => ⟨S4x64x1x128x128, .f32⟩
  | .hbm, ⟨22, _⟩ => ⟨S4x64x1x128x128, .f32⟩
  | .hbm, ⟨23, _⟩ => ⟨S4x64x9x128x128, .f32⟩
  | .hbm, ⟨24, _⟩ => ⟨S4x576x16384, .f32⟩
  | .hbm, ⟨25, _⟩ => ⟨S4x64x16384x9, .f32⟩
  | .hbm, ⟨26, _⟩ => ⟨S_, .i32⟩
  | .hbm, ⟨27, _⟩ => ⟨S_, .f32⟩
  | .hbm, ⟨28, _⟩ => ⟨S4x64x130x130, .f32⟩
  | .hbm, ⟨29, _⟩ => ⟨S4x64x128x128, .f32⟩
  | .hbm, ⟨30, _⟩ => ⟨S4x64x128x128, .f32⟩
  | .hbm, ⟨31, _⟩ => ⟨S4x64x128x128, .f32⟩
  | .hbm, ⟨32, _⟩ => ⟨S4x64x128x128, .f32⟩
  | .hbm, ⟨33, _⟩ => ⟨S4x64x128x128, .f32⟩
  | .hbm, ⟨34, _⟩ => ⟨S4x64x128x128, .f32⟩
  | .hbm, ⟨35, _⟩ => ⟨S4x64x128x128, .f32⟩
  | .hbm, ⟨36, _⟩ => ⟨S4x64x128x128, .f32⟩
  | .hbm, ⟨37, _⟩ => ⟨S4x64x128x128, .f32⟩
  | .hbm, ⟨38, _⟩ => ⟨S4x64x1x128x128, .f32⟩
  | .hbm, ⟨39, _⟩ => ⟨S4x64x1x128x128, .f32⟩
  | .hbm, ⟨40, _⟩ => ⟨S4x64x1x128x128, .f32⟩
  | .hbm, ⟨41, _⟩ => ⟨S4x64x1x128x128, .f32⟩
  | .hbm, ⟨42, _⟩ => ⟨S4x64x1x128x128, .f32⟩
  | .hbm, ⟨43, _⟩ => ⟨S4x64x1x128x128, .f32⟩
  | .hbm, ⟨44, _⟩ => ⟨S4x64x1x128x128, .f32⟩
  | .hbm, ⟨45, _⟩ => ⟨S4x64x1x128x128, .f32⟩
  | .hbm, ⟨46, _⟩ => ⟨S4x64x1x128x128, .f32⟩
  | .hbm, ⟨47, _⟩ => ⟨S4x64x9x128x128, .f32⟩
  | .hbm, ⟨48, _⟩ => ⟨S4x576x16384, .f32⟩
  | .hbm, ⟨49, _⟩ => ⟨S4x64x16384x9, .f32⟩
  | .hbm, ⟨50, _⟩ => ⟨S256x16384x9, .f32⟩
  | .hbm, ⟨51, _⟩ => ⟨S256x16384x9, .f32⟩
  | .hbm, ⟨52, _⟩ => ⟨S256x16384x9, .f32⟩
  | .hbm, ⟨53, _⟩ => ⟨S256x16384x9, .f32⟩
  | .hbm, ⟨54, _⟩ => ⟨S4x64x16384x9, .f32⟩
  | .hbm, ⟨55, _⟩ => ⟨S4x64x16384x9, .f32⟩
  | .local _ .vmem, ⟨0, _⟩ => ⟨S4x2048x9, .f32⟩
  | .local _ .vmem, ⟨1, _⟩ => ⟨S4x2048x9, .f32⟩
  | .local _ .vmem, ⟨2, _⟩ => ⟨S4x2048x9, .f32⟩
  | .local _ .vmem, ⟨3, _⟩ => ⟨S4x2048x9, .f32⟩
  | .local _ .vmem, ⟨4, _⟩ => ⟨S4x2048x9, .f32⟩
  | .local _ .vmem, ⟨5, _⟩ => ⟨S4x2048x9, .f32⟩
  | .local _ .vmem, ⟨6, _⟩ => ⟨S4x2048x9, .f32⟩
  | .local _ .vmem, ⟨7, _⟩ => ⟨S4x2048x9, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46_0 : Ref sig .tc := ⟨.hbm, 52, rfl⟩
abbrev main_v46_1 : Ref sig .tc := ⟨.hbm, 53, rfl⟩
abbrev main_v47 : Ref sig .tc := ⟨.hbm, 54, rfl⟩
abbrev main_v48 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x2048x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x2048x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2048x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S4x64x128x128_S4x64x130x130_000_000_110_110 : S4x64x128x128.Pads (![0, 0, 1, 1] : Fin 4 → Nat) ![0, 0, 1, 1] ![0, 0, 0, 0] S4x64x130x130
  h_S_ : 0 < S_.numel
  slices_S4x64x130x130_S4x64x128x128_0_0_0_0 : S4x64x130x130.Slices ![0, 0, 0, 0] S4x64x128x128
  slices_S4x64x130x130_S4x64x128x128_0_0_0_1 : S4x64x130x130.Slices ![0, 0, 0, 1] S4x64x128x128
  slices_S4x64x130x130_S4x64x128x128_0_0_0_2 : S4x64x130x130.Slices ![0, 0, 0, 2] S4x64x128x128
  slices_S4x64x130x130_S4x64x128x128_0_0_1_0 : S4x64x130x130.Slices ![0, 0, 1, 0] S4x64x128x128
  slices_S4x64x130x130_S4x64x128x128_0_0_1_1 : S4x64x130x130.Slices ![0, 0, 1, 1] S4x64x128x128
  slices_S4x64x130x130_S4x64x128x128_0_0_1_2 : S4x64x130x130.Slices ![0, 0, 1, 2] S4x64x128x128
  slices_S4x64x130x130_S4x64x128x128_0_0_2_0 : S4x64x130x130.Slices ![0, 0, 2, 0] S4x64x128x128
  slices_S4x64x130x130_S4x64x128x128_0_0_2_1 : S4x64x130x130.Slices ![0, 0, 2, 1] S4x64x128x128
  slices_S4x64x130x130_S4x64x128x128_0_0_2_2 : S4x64x130x130.Slices ![0, 0, 2, 2] S4x64x128x128
  bcast_S4x64x128x128_S4x64x1x128x128_0_1_3_4 : S4x64x128x128.BroadcastsInDim S4x64x1x128x128 (![0, 1, 3, 4] : Fin 4 → Fin S4x64x1x128x128.rank)
  concatenates_S4x64x1x128x128_S4x64x1x128x128_S4x64x1x128x128_S4x64x1x128x128_S4x64x1x128x128_S4x64x1x128x128_S4x64x1x128x128_S4x64x1x128x128_S4x64x1x128x128_S4x64x9x128x128_d2 : Shape.Concatenates [S4x64x1x128x128, S4x64x1x128x128, S4x64x1x128x128, S4x64x1x128x128, S4x64x1x128x128, S4x64x1x128x128, S4x64x1x128x128, S4x64x1x128x128, S4x64x1x128x128] S4x64x9x128x128 2
  shapeCasts_S4x64x9x128x128_S4x576x16384 : S4x64x9x128x128.ShapeCasts S4x576x16384
  shapeCasts_S4x576x16384_S4x64x16384x9 : S4x576x16384.ShapeCasts S4x64x16384x9
  shapeCasts_S4x64x16384x9_S256x16384x9 : S4x64x16384x9.ShapeCasts S256x16384x9
  inb_S4x2048x9_S4x2048x9_0_0_0 : ∀ a, (![0, 0, 0] : Fin 3 → Nat) a + S4x2048x9.size a ≤ S4x2048x9.size a
  h_S4x2048x9 : 0 < S4x2048x9.numel
  shapeCasts_S4x2048x9_S4x2048x9 : S4x2048x9.ShapeCasts S4x2048x9
  slices_S4x2048x9_o0_0_4_S4x2048x1 : S4x2048x9.Slices ![0, 0, 4] S4x2048x1
  broadcasts_S4x2048x1_S4x2048x9 : S4x2048x1.Broadcasts S4x2048x9
  shapeCasts_S256x16384x9_S4x64x16384x9 : S256x16384x9.ShapeCasts S4x64x16384x9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x9.size a ≤ S256x16384x9.size a
  hwx0_0 : ∀ i : grid0.Coords, EltTy.bits .f32 = 32 ∨ (Rect.block (s := S256x16384x9) S4x2048x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x9.size a ≤ S256x16384x9.size a
  hwx0_1 : ∀ i : grid0.Coords, EltTy.bits .f32 = 32 ∨ (Rect.block (s := S256x16384x9) S4x2048x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x9.size a ≤ S256x16384x9.size a
  hwx0_2 : ∀ i : grid0.Coords, EltTy.bits .f32 = 32 ∨ (Rect.block (s := S256x16384x9) S4x2048x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x9.size a ≤ S256x16384x9.size a
  hwx0_3 : ∀ i : grid0.Coords, EltTy.bits .f32 = 32 ∨ (Rect.block (s := S256x16384x9) S4x2048x9.size (cc0_transform_3 i) (hinb0_3 i)).WholeWords (EltTy.packing .f32)

variable [Facts₀]

abbrev win0_0 : Pipeline.Window sig grid0 :=
  Pipeline.Window.ofSpec (Memref.whole main_v44) S4x2048x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S4x2048x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46_0) S4x2048x9.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46_1) S4x2048x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x128x128 : Shape := ⟨4, ![4, 64, 128, 128]⟩
abbrev S_ : Shape := ⟨0, ![]⟩
abbrev S4x64x130x130 : Shape := ⟨4, ![4, 64, 130, 130]⟩
abbrev S4x64x1x128x128 : Shape := ⟨5, ![4, 64, 1, 128, 128]⟩
abbrev S4x64x9x128x128 : Shape := ⟨5, ![4, 64, 9, 128, 128]⟩
abbrev S4x576x16384 : Shape := ⟨3, ![4, 576, 16384]⟩
abbrev S4x64x16384x9 : Shape := ⟨4, ![4, 64, 16384, 9]⟩
abbrev S4x64x16384x1 : Shape := ⟨4, ![4, 64, 16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S4x64x128x128, .f32⟩
  | .hbm, ⟨2, _⟩ => ⟨S_, .i32⟩
  | .hbm, ⟨3, _⟩ => ⟨S_, .f32⟩
  | .hbm, ⟨4, _⟩ => ⟨S4x64x130x130, .f32⟩
  | .hbm, ⟨5, _⟩ => ⟨S4x64x128x128, .f32⟩
  | .hbm, ⟨6, _⟩ => ⟨S4x64x128x128, .f32⟩
  | .hbm, ⟨7, _⟩ => ⟨S4x64x128x128, .f32⟩
  | .hbm, ⟨8, _⟩ => ⟨S4x64x128x128, .f32⟩
  | .hbm, ⟨9, _⟩ => ⟨S4x64x128x128, .f32⟩
  | .hbm, ⟨10, _⟩ => ⟨S4x64x128x128, .f32⟩
  | .hbm, ⟨11, _⟩ => ⟨S4x64x128x128, .f32⟩
  | .hbm, ⟨12, _⟩ => ⟨S4x64x128x128, .f32⟩
  | .hbm, ⟨13, _⟩ => ⟨S4x64x128x128, .f32⟩
  | .hbm, ⟨14, _⟩ => ⟨S4x64x1x128x128, .f32⟩
  | .hbm, ⟨15, _⟩ => ⟨S4x64x1x128x128, .f32⟩
  | .hbm, ⟨16, _⟩ => ⟨S4x64x1x128x128, .f32⟩
  | .hbm, ⟨17, _⟩ => ⟨S4x64x1x128x128, .f32⟩
  | .hbm, ⟨18, _⟩ => ⟨S4x64x1x128x128, .f32⟩
  | .hbm, ⟨19, _⟩ => ⟨S4x64x1x128x128, .f32⟩
  | .hbm, ⟨20, _⟩ => ⟨S4x64x1x128x128, .f32⟩
  | .hbm, ⟨21, _⟩ => ⟨S4x64x1x128x128, .f32⟩
  | .hbm, ⟨22, _⟩ => ⟨S4x64x1x128x128, .f32⟩
  | .hbm, ⟨23, _⟩ => ⟨S4x64x9x128x128, .f32⟩
  | .hbm, ⟨24, _⟩ => ⟨S4x576x16384, .f32⟩
  | .hbm, ⟨25, _⟩ => ⟨S4x64x16384x9, .f32⟩
  | .hbm, ⟨26, _⟩ => ⟨S_, .i32⟩
  | .hbm, ⟨27, _⟩ => ⟨S_, .f32⟩
  | .hbm, ⟨28, _⟩ => ⟨S4x64x130x130, .f32⟩
  | .hbm, ⟨29, _⟩ => ⟨S4x64x128x128, .f32⟩
  | .hbm, ⟨30, _⟩ => ⟨S4x64x128x128, .f32⟩
  | .hbm, ⟨31, _⟩ => ⟨S4x64x128x128, .f32⟩
  | .hbm, ⟨32, _⟩ => ⟨S4x64x128x128, .f32⟩
  | .hbm, ⟨33, _⟩ => ⟨S4x64x128x128, .f32⟩
  | .hbm, ⟨34, _⟩ => ⟨S4x64x128x128, .f32⟩
  | .hbm, ⟨35, _⟩ => ⟨S4x64x128x128, .f32⟩
  | .hbm, ⟨36, _⟩ => ⟨S4x64x128x128, .f32⟩
  | .hbm, ⟨37, _⟩ => ⟨S4x64x128x128, .f32⟩
  | .hbm, ⟨38, _⟩ => ⟨S4x64x1x128x128, .f32⟩
  | .hbm, ⟨39, _⟩ => ⟨S4x64x1x128x128, .f32⟩
  | .hbm, ⟨40, _⟩ => ⟨S4x64x1x128x128, .f32⟩
  | .hbm, ⟨41, _⟩ => ⟨S4x64x1x128x128, .f32⟩
  | .hbm, ⟨42, _⟩ => ⟨S4x64x1x128x128, .f32⟩
  | .hbm, ⟨43, _⟩ => ⟨S4x64x1x128x128, .f32⟩
  | .hbm, ⟨44, _⟩ => ⟨S4x64x1x128x128, .f32⟩
  | .hbm, ⟨45, _⟩ => ⟨S4x64x1x128x128, .f32⟩
  | .hbm, ⟨46, _⟩ => ⟨S4x64x1x128x128, .f32⟩
  | .hbm, ⟨47, _⟩ => ⟨S4x64x9x128x128, .f32⟩
  | .hbm, ⟨48, _⟩ => ⟨S4x576x16384, .f32⟩
  | .hbm, ⟨49, _⟩ => ⟨S4x64x16384x9, .f32⟩
  | .hbm, ⟨50, _⟩ => ⟨S4x64x16384x1, .f32⟩
  | .hbm, ⟨51, _⟩ => ⟨S4x64x16384x9, .f32⟩
  | .hbm, ⟨52, _⟩ => ⟨S4x64x16384x9, .f32⟩
  | .hbm, ⟨53, _⟩ => ⟨S4x64x16384x1, .f32⟩
  | .hbm, ⟨54, _⟩ => ⟨S4x64x16384x9, .f32⟩
  | .hbm, ⟨55, _⟩ => ⟨S4x64x16384x9, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩

abbrev nD : Nat := 1
abbrev τ : Topo := Topo.v7x

variable {F : FTy → Type} [FloatOps F]

class Facts₀ : Prop where
  pads_S4x64x128x128_S4x64x130x130_000_000_110_110 : S4x64x128x128.Pads (![0, 0, 1, 1] : Fin 4 → Nat) ![0, 0, 1, 1] ![0, 0, 0, 0] S4x64x130x130
  h_S_ : 0 < S_.numel
  slices_S4x64x130x130_S4x64x128x128_0_0_0_0 : S4x64x130x130.Slices ![0, 0, 0, 0] S4x64x128x128
  slices_S4x64x130x130_S4x64x128x128_0_0_0_1 : S4x64x130x130.Slices ![0, 0, 0, 1] S4x64x128x128
  slices_S4x64x130x130_S4x64x128x128_0_0_0_2 : S4x64x130x130.Slices ![0, 0, 0, 2] S4x64x128x128
  slices_S4x64x130x130_S4x64x128x128_0_0_1_0 : S4x64x130x130.Slices ![0, 0, 1, 0] S4x64x128x128
  slices_S4x64x130x130_S4x64x128x128_0_0_1_1 : S4x64x130x130.Slices ![0, 0, 1, 1] S4x64x128x128
  slices_S4x64x130x130_S4x64x128x128_0_0_1_2 : S4x64x130x130.Slices ![0, 0, 1, 2] S4x64x128x128
  slices_S4x64x130x130_S4x64x128x128_0_0_2_0 : S4x64x130x130.Slices ![0, 0, 2, 0] S4x64x128x128
  slices_S4x64x130x130_S4x64x128x128_0_0_2_1 : S4x64x130x130.Slices ![0, 0, 2, 1] S4x64x128x128
  slices_S4x64x130x130_S4x64x128x128_0_0_2_2 : S4x64x130x130.Slices ![0, 0, 2, 2] S4x64x128x128
  bcast_S4x64x128x128_S4x64x1x128x128_0_1_3_4 : S4x64x128x128.BroadcastsInDim S4x64x1x128x128 (![0, 1, 3, 4] : Fin 4 → Fin S4x64x1x128x128.rank)
  concatenates_S4x64x1x128x128_S4x64x1x128x128_S4x64x1x128x128_S4x64x1x128x128_S4x64x1x128x128_S4x64x1x128x128_S4x64x1x128x128_S4x64x1x128x128_S4x64x1x128x128_S4x64x9x128x128_d2 : Shape.Concatenates [S4x64x1x128x128, S4x64x1x128x128, S4x64x1x128x128, S4x64x1x128x128, S4x64x1x128x128, S4x64x1x128x128, S4x64x1x128x128, S4x64x1x128x128, S4x64x1x128x128] S4x64x9x128x128 2
  shapeCasts_S4x64x9x128x128_S4x576x16384 : S4x64x9x128x128.ShapeCasts S4x576x16384
  shapeCasts_S4x576x16384_S4x64x16384x9 : S4x576x16384.ShapeCasts S4x64x16384x9
  slices_S4x64x16384x9_S4x64x16384x1_0_0_0_4 : S4x64x16384x9.Slices ![0, 0, 0, 4] S4x64x16384x1
  bcast_S4x64x16384x1_S4x64x16384x9_0_1_2_3 : S4x64x16384x1.BroadcastsInDim S4x64x16384x9 (![0, 1, 2, 3] : Fin 4 → Fin S4x64x16384x9.rank)

variable [Facts₀]

class Facts : Prop extends Facts₀ where

variable [Facts]
-- ==== Proof.FrameKernel.lean ====
/-
  The run of `Kernel`'s @main, written against the pipeline library's frame run with a host tail.

  @main is five stretches of host operations (zero-padding each argument by one on the two spatial axes, nine
  shifted 128x128 slices of each padded array stacked on a new axis, the stack read row-major as [4,576,16384],
  then as [4,64,16384,9], then as [256,16384,9]), one pallas_call on a 64 x 8 grid, and two reshapes of its results.
  At grid point `t` the body is handed the [4,2048,9] blocks `a`, `b` of the two unfolded arrays and leaves
  `a * b[:, :, 4]` (the centre column broadcast along the last axis) in the first output's staging buffer and
  `a[:, :, 4] * b` in the second's; it also loads both output buffers, and uses neither value.
  Every theorem here holds at any float instance `F`.
-/
import proofs.«164164_j44160853737973_1_alg».proof.Proof.Gen.Kernel.Launch
import proofs.«164164_j44160853737973_1_alg».proof.Proof.Gen.Kernel.Skeleton
import proofs.«164164_j44160853737973_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev hostBefore : List (List (HloOp τ sig (Elt F))) := [hostOps0, hostOps0_1, hostOps0_2, hostOps0_3, hostOps0_4]
/-- The host operations after it. -/
abbrev hostAfter : List (List (HloOp τ sig (Elt F))) := [hostOps1]

/-- Core `c`'s buffer contents when the region is entered: the launch contents run through the host operations
    before the region. -/
abbrev V0 (c : Dev nD) : Valuation τ sig (Elt F) := StableHlo.after (List.flatten hostBefore) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to its region continued by the two reshapes, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostBefore hostAfter
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The two reshapes touch only unscoped TensorCore buffers, -/
theorem after_sub : ∀ ops ∈ (hostAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem after_fresh : ∀ ops ∈ (hostAfter : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the four arrays the region stages (each writes its own result buffer). -/
theorem after_keeps : ∀ ops ∈ (hostAfter : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The reshapes after the region do not write the first argument, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) hostAfter c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) hostAfter c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data over the entry contents whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output's staging buffer -/

/-- The whole [4,2048,9] buffer as a rectangle: every load and store of the body goes through it. -/
abbrev whole : Rect S4x2048x9 := Rect.unit (s := S4x2048x9) ![0, 0, 0] S4x2048x9.size Gen.inb_S4x2048x9_S4x2048x9_0_0_0

/-- The first output's buffer after the body: the one store's payload, `a * b[:, :, 4]`. -/
def outA (x0 x1 : Vec F S4x2048x9 .f32) : Vec F S4x2048x9 .f32 :=
  View.canon [⟨whole, k0_pay3 (View.ld x0 whole) (View.ld x1 whole)⟩]
/-- The second output's: `a[:, :, 4] * b`. -/
def outB (x0 x1 : Vec F S4x2048x9 .f32) : Vec F S4x2048x9 .f32 :=
  View.canon [⟨whole, k0_pay4 (View.ld x0 whole) (View.ld x1 whole)⟩]

/-- One store through the whole rectangle covers the buffer. -/
theorem cover_whole (p0 : Vec F S4x2048x9 .f32) (y : S4x2048x9.Idx) :
    ∃ pc ∈ ([⟨whole, p0⟩] : List (View.Piece (Elt F) S4x2048x9 .f32)), y ∈ pc.1.set :=
  View.cover_of_tiled [⟨whole, p0⟩] S4x2048x9.size (by rfl) y

/-! ## The body -/

set_option maxHeartbeats 1000000 in
/-- The body on whole staging memrefs — the inputs' at `x0`, `x1`, the outputs' at anything — runs to the continuation
    holding the inputs' unchanged and the outputs' at `outA x0 x1`, `outB x0 x1`. -/
theorem sound_kernel (c : Dev nD) (E : Set ℕ) (i : grid0.Coords)
    (arg2 : Memref sig .tc .vmem S4x2048x9 .f32) (harg2 : arg2.IsWhole) (arg3 : Memref sig .tc .vmem S4x2048x9 .f32) (harg3 : arg3.IsWhole)
    (arg4 : Memref sig .tc .vmem S4x2048x9 .f32) (harg4 : arg4.IsWhole) (arg5 : Memref sig .tc .vmem S4x2048x9 .f32) (harg5 : arg5.IsWhole)
    (x0 x1 : Vec F S4x2048x9 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (outA x0 x1) ∗ owns (c : Thread nD τ) arg5 fullShare (outB x0 x1)) -∗ K ⟨⟩))
      ⊢ wp frame (wpE (defs₀ (F := F)) Variants.none c none) E (cc0__elementwise_kernel i arg2 harg2 arg3 harg3 arg4 harg4 arg5 harg5) K := by
  simp only [cc0__elementwise_kernel_eq_skeleton]; unfold cc0__elementwise_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  iexists _; isplitr
  swap; · iexact H3
  ipureintro
  exact View.read_writes_eq_canon _ _ _ (cover_whole _)

/-! ## The proof data -/

/-- The pipeline's proof data on core `c`: the arrays as the region finds them; after the body at point `t` each
    input's buffer at its block and each output's at `outA` / `outB` of the two input blocks; the region invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outA (iblk m c 0 t) (iblk m c 1 t)
    | ⟨3, _⟩ => outB (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outA (iblk m c 0 t) (iblk m c 1 t) := by dsimp only [dats]
theorem after_3 (c : Dev nD) (t : Fin cfg0.N) : (dats m 0 c).after 3 t = outB (iblk m c 0 t) (iblk m c 1 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each of the region's four arrays at what
    the write-backs of the proof data make of it, and every other unscoped buffer as the two reshapes leave it. -/
theorem run_main : θ_run defs (onTc (τ := τ) (main (F := F))) (s₀ m ρ) (Pipeline.FramePost cfgs (dats m) 0 (Pipeline.afterTail₀ cfgs (dats m) 0 (V0 m) hostAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := hostAfter) (hsub := after_sub) (hfresh := after_fresh) (hkeep := after_keeps)
    (hmain := hmain m Variants.none) (hA := A_eq m) (hΦ := fun _ _ => rfl)

/-- The frame: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.Kernel.Hand

end
-- ==== Proof.FrameKernelIdeal.lean ====
/-
  The run of `KernelIdeal`'s @main, written against the pipeline library's frame run with a host tail.

  @main is five stretches of host operations (zero-padding each argument by one on the two spatial axes, nine
  shifted 128x128 slices of each padded array stacked on a new axis, the stack read row-major as [4,576,16384],
  then as [4,64,16384,9], then as [256,16384,9]), one pallas_call on a 64 x 8 grid, and two reshapes of its results.
  At grid point `t` the body is handed the [4,2048,9] blocks `a`, `b` of the two unfolded arrays and leaves
  `a * b[:, :, 4]` (the centre column broadcast along the last axis) in the first output's staging buffer and
  `a[:, :, 4] * b` in the second's; it also loads both output buffers, and uses neither value.
  Every theorem here holds at any float instance `F`.
-/
import proofs.«164164_j44160853737973_1_alg».proof.Proof.Gen.KernelIdeal.Launch
import proofs.«164164_j44160853737973_1_alg».proof.Proof.Gen.KernelIdeal.Skeleton
import proofs.«164164_j44160853737973_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev hostBefore : List (List (HloOp τ sig (Elt F))) := [hostOps0, hostOps0_1, hostOps0_2, hostOps0_3, hostOps0_4]
/-- The host operations after it. -/
abbrev hostAfter : List (List (HloOp τ sig (Elt F))) := [hostOps1]

/-- Core `c`'s buffer contents when the region is entered: the launch contents run through the host operations
    before the region. -/
abbrev V0 (c : Dev nD) : Valuation τ sig (Elt F) := StableHlo.after (List.flatten hostBefore) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to its region continued by the two reshapes, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostBefore hostAfter
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The two reshapes touch only unscoped TensorCore buffers, -/
theorem after_sub : ∀ ops ∈ (hostAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem after_fresh : ∀ ops ∈ (hostAfter : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the four arrays the region stages (each writes its own result buffer). -/
theorem after_keeps : ∀ ops ∈ (hostAfter : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The reshapes after the region do not write the first argument, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) hostAfter c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) hostAfter c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data over the entry contents whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output's staging buffer -/

/-- The whole [4,2048,9] buffer as a rectangle: every load and store of the body goes through it. -/
abbrev whole : Rect S4x2048x9 := Rect.unit (s := S4x2048x9) ![0, 0, 0] S4x2048x9.size Gen.inb_S4x2048x9_S4x2048x9_0_0_0

/-- The first output's buffer after the body: the one store's payload, `a * b[:, :, 4]`. -/
def outA (x0 x1 : Vec F S4x2048x9 .f32) : Vec F S4x2048x9 .f32 :=
  View.canon [⟨whole, k0_pay3 (View.ld x0 whole) (View.ld x1 whole)⟩]
/-- The second output's: `a[:, :, 4] * b`. -/
def outB (x0 x1 : Vec F S4x2048x9 .f32) : Vec F S4x2048x9 .f32 :=
  View.canon [⟨whole, k0_pay4 (View.ld x0 whole) (View.ld x1 whole)⟩]

/-- One store through the whole rectangle covers the buffer. -/
theorem cover_whole (p0 : Vec F S4x2048x9 .f32) (y : S4x2048x9.Idx) :
    ∃ pc ∈ ([⟨whole, p0⟩] : List (View.Piece (Elt F) S4x2048x9 .f32)), y ∈ pc.1.set :=
  View.cover_of_tiled [⟨whole, p0⟩] S4x2048x9.size (by rfl) y

/-! ## The body -/

set_option maxHeartbeats 1000000 in
/-- The body on whole staging memrefs — the inputs' at `x0`, `x1`, the outputs' at anything — runs to the continuation
    holding the inputs' unchanged and the outputs' at `outA x0 x1`, `outB x0 x1`. -/
theorem sound_kernel (c : Dev nD) (E : Set ℕ) (i : grid0.Coords)
    (arg2 : Memref sig .tc .vmem S4x2048x9 .f32) (harg2 : arg2.IsWhole) (arg3 : Memref sig .tc .vmem S4x2048x9 .f32) (harg3 : arg3.IsWhole)
    (arg4 : Memref sig .tc .vmem S4x2048x9 .f32) (harg4 : arg4.IsWhole) (arg5 : Memref sig .tc .vmem S4x2048x9 .f32) (harg5 : arg5.IsWhole)
    (x0 x1 : Vec F S4x2048x9 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (outA x0 x1) ∗ owns (c : Thread nD τ) arg5 fullShare (outB x0 x1)) -∗ K ⟨⟩))
      ⊢ wp frame (wpE (defs₀ (F := F)) Variants.none c none) E (cc0__elementwise_kernel i arg2 harg2 arg3 harg3 arg4 harg4 arg5 harg5) K := by
  simp only [cc0__elementwise_kernel_eq_skeleton]; unfold cc0__elementwise_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_whole _)
  iexists _; isplitr
  swap; · iexact H3
  ipureintro
  exact View.read_writes_eq_canon _ _ _ (cover_whole _)

/-! ## The proof data -/

/-- The pipeline's proof data on core `c`: the arrays as the region finds them; after the body at point `t` each
    input's buffer at its block and each output's at `outA` / `outB` of the two input blocks; the region invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outA (iblk m c 0 t) (iblk m c 1 t)
    | ⟨3, _⟩ => outB (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outA (iblk m c 0 t) (iblk m c 1 t) := by dsimp only [dats]
theorem after_3 (c : Dev nD) (t : Fin cfg0.N) : (dats m 0 c).after 3 t = outB (iblk m c 0 t) (iblk m c 1 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each of the region's four arrays at what
    the write-backs of the proof data make of it, and every other unscoped buffer as the two reshapes leave it. -/
theorem run_main : θ_run defs (onTc (τ := τ) (main (F := F))) (s₀ m ρ) (Pipeline.FramePost cfgs (dats m) 0 (Pipeline.afterTail₀ cfgs (dats m) 0 (V0 m) hostAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := hostAfter) (hsub := after_sub) (hfresh := after_fresh) (hkeep := after_keeps)
    (hmain := hmain m Variants.none) (hA := A_eq m) (hΦ := fun _ _ => rfl)

/-- The frame: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Hand

end
-- ==== Proof.Centre.lean ====
/-
  The centre-column product, index by index, at the ideal instance (floats are extended reals).

  An unfolded array has a last axis of length 9, one entry per position of a 3x3 patch, position 4 the centre.
  The two results are `A(…, j) = a(…, j) * b(…, 4)` and `B(…, j) = a(…, 4) * b(…, j)`. They are stated here for the
  two layouts the programs use — [4,64,16384,9], and the same entries read row-major as [256,16384,9] — and for one
  [4,2048,9] block, together with the reading of each layout operation involved at an index. No algebraic law is
  needed: both programs multiply the same two entries in the same order.
-/
import Idealize.ShloMosaic.PureOps.Ideal
import Idealize.ShloMosaic.Lib.ValueIdx
import Idealize.ShloMosaic.Lib.Pipeline.Value

noncomputable section

namespace Cert.Centre

open Idealize.ShloMosaic Idealize.ShloMosaic.ValueIdx

/-- The unfolded array, rows merged: [256, 16384, 9]. -/
abbrev Rows : Shape := ⟨3, ![256, 16384, 9]⟩
/-- The unfolded array as the reference shapes it: [4, 64, 16384, 9]. -/
abbrev Full : Shape := ⟨4, ![4, 64, 16384, 9]⟩
/-- One block: [4, 2048, 9]. -/
abbrev Blk : Shape := ⟨3, ![4, 2048, 9]⟩
/-- A block's centre column: [4, 2048, 1]. -/
abbrev BlkCol : Shape := ⟨3, ![4, 2048, 1]⟩
/-- The reference's centre column: [4, 64, 16384, 1]. -/
abbrev FullCol : Shape := ⟨4, ![4, 64, 16384, 1]⟩

/-- The centre position of a 3x3 patch. -/
abbrev ctr : Fin 9 := ⟨4, by decide⟩

/-- `a * b[centre]` over [256, 16384, 9]. -/
def prodA3 (a b : Rows.Idx → EReal) : Rows.Idx → EReal :=
  fun i => a i * b (ix3 (n0 := 256) (n1 := 16384) (n2 := 9) (i 0) (i 1) ctr)
/-- `a[centre] * b` over [256, 16384, 9]. -/
def prodB3 (a b : Rows.Idx → EReal) : Rows.Idx → EReal :=
  fun i => a (ix3 (n0 := 256) (n1 := 16384) (n2 := 9) (i 0) (i 1) ctr) * b i
/-- `a * b[centre]` over [4, 64, 16384, 9]. -/
def prodA4 (a b : Full.Idx → EReal) : Full.Idx → EReal :=
  fun i => a i * b (ix4 (n0 := 4) (n1 := 64) (n2 := 16384) (n3 := 9) (i 0) (i 1) (i 2) ctr)
/-- `a[centre] * b` over [4, 64, 16384, 9]. -/
def prodB4 (a b : Full.Idx → EReal) : Full.Idx → EReal :=
  fun i => a (ix4 (n0 := 4) (n1 := 64) (n2 := 16384) (n3 := 9) (i 0) (i 1) (i 2) ctr) * b i

/-! ## One block -/

/-- A block's centre column broadcast back along the last axis, read at `(p, q, k)`, is the block at `(p, q, 4)`. -/
theorem centre_bcast_apply (hs : Blk.Slices ![0, 0, 4] BlkCol) (hb : BlkCol.Broadcasts Blk) (x : Blk.Idx → EReal)
    (p : Fin 4) (q : Fin 2048) (k : Fin 9) :
    broadcastTo Blk (extractStridedSlice BlkCol ![0, 0, 4] x hs) hb (ix3 p q k) = x (ix3 p q ctr) := by
  rw [broadcastTo_apply (extractStridedSlice BlkCol ![0, 0, 4] x hs) hb (ix3 p q k) (ix3 (n2 := 1) p q 0) (fun a => by
    match a with
    | ⟨0, _⟩ => show p.val = if (4 : Nat) = 1 then 0 else p.val; rw [if_neg (by decide)]
    | ⟨1, _⟩ => show q.val = if (2048 : Nat) = 1 then 0 else q.val; rw [if_neg (by decide)]
    | ⟨2, _⟩ => show 0 = if (1 : Nat) = 1 then 0 else k.val; rw [if_pos rfl])]
  exact extractStridedSlice_apply ![0, 0, 4] x hs (ix3 (n2 := 1) p q 0) (ix3 p q ctr) (fun a => by
    match a with
    | ⟨0, _⟩ => show p.val = 0 + p.val; omega
    | ⟨1, _⟩ => show q.val = 0 + q.val; omega
    | ⟨2, _⟩ => show 4 = 4 + 0; omega)

/-! ## The two layouts -/

/-- Reading [4,64,16384,9] row-major as [256,16384,9]: entry `(r, l, j)` is entry `(r / 64, r % 64, l, j)`. -/
theorem rows_apply (h : Full.ShapeCasts Rows) (x : Full.Idx → EReal) (r : Fin 256) (l : Fin 16384) (j : Fin 9) :
    shapeCast Rows x h (ix3 r l j)
      = x (ix4 (n0 := 4) (n1 := 64) ⟨r.val / 64, by have := r.isLt; omega⟩ ⟨r.val % 64, Nat.mod_lt _ (by decide)⟩ l j) := by
  refine shapeCast_apply x h (ix3 r l j) _ ?_
  rw [Shape.rowMajor_val_four, Shape.rowMajor_val_three]
  show ((r.val / 64 * 64 + r.val % 64) * 16384 + l.val) * 9 + j.val = (r.val * 16384 + l.val) * 9 + j.val
  have := Nat.div_add_mod r.val 64
  have e : r.val / 64 * 64 + r.val % 64 = r.val := by omega
  rw [e]

/-- And back: entry `(b, ch, l, j)` of the [4,64,16384,9] reading is entry `(64 b + ch, l, j)`. -/
theorem full_apply (h : Rows.ShapeCasts Full) (y : Rows.Idx → EReal) (b : Fin 4) (ch : Fin 64) (l : Fin 16384) (j : Fin 9) :
    shapeCast Full y h (ix4 b ch l j)
      = y (ix3 (n0 := 256) ⟨b.val * 64 + ch.val, by have := b.isLt; have := ch.isLt; omega⟩ l j) := by
  refine shapeCast_apply y h (ix4 b ch l j) _ ?_
  rw [Shape.rowMajor_val_four, Shape.rowMajor_val_three]
  rfl

/-- The first product commutes with the change of layout. -/
theorem prodA_layout (h : Full.ShapeCasts Rows) (h' : Rows.ShapeCasts Full) (a b : Full.Idx → EReal) :
    shapeCast Full (prodA3 (shapeCast Rows a h) (shapeCast Rows b h)) h' = prodA4 a b := by
  funext i
  obtain ⟨p, ch, l, j, rfl⟩ : ∃ (p : Fin 4) (ch : Fin 64) (l : Fin 16384) (j : Fin 9), i = ix4 p ch l j :=
    ⟨i 0, i 1, i 2, i 3, eq_ix4 i⟩
  rw [full_apply]
  unfold prodA3 prodA4
  have hp := p.isLt; have hc := ch.isLt
  have e1 : (p.val * 64 + ch.val) / 64 = p.val := by omega
  have e2 : (p.val * 64 + ch.val) % 64 = ch.val := by omega
  show shapeCast Rows a h (ix3 ⟨p.val * 64 + ch.val, _⟩ l j) * shapeCast Rows b h (ix3 ⟨p.val * 64 + ch.val, _⟩ l ctr)
      = a (ix4 p ch l j) * b (ix4 p ch l ctr)
  rw [rows_apply, rows_apply]
  congr 2 <;> (congr 1 <;> apply Fin.ext <;> assumption)

/-- So does the second. -/
theorem prodB_layout (h : Full.ShapeCasts Rows) (h' : Rows.ShapeCasts Full) (a b : Full.Idx → EReal) :
    shapeCast Full (prodB3 (shapeCast Rows a h) (shapeCast Rows b h)) h' = prodB4 a b := by
  funext i
  obtain ⟨p, ch, l, j, rfl⟩ : ∃ (p : Fin 4) (ch : Fin 64) (l : Fin 16384) (j : Fin 9), i = ix4 p ch l j :=
    ⟨i 0, i 1, i 2, i 3, eq_ix4 i⟩
  rw [full_apply]
  unfold prodB3 prodB4
  have hp := p.isLt; have hc := ch.isLt
  have e1 : (p.val * 64 + ch.val) / 64 = p.val := by omega
  have e2 : (p.val * 64 + ch.val) % 64 = ch.val := by omega
  show shapeCast Rows a h (ix3 ⟨p.val * 64 + ch.val, _⟩ l ctr) * shapeCast Rows b h (ix3 ⟨p.val * 64 + ch.val, _⟩ l j)
      = a (ix4 p ch l ctr) * b (ix4 p ch l j)
  rw [rows_apply, rows_apply]
  congr 2 <;> (congr 1 <;> apply Fin.ext <;> assumption)

/-! ## The reference's spelling -/

/-- The centre column sliced out of [4,64,16384,9] and broadcast back, read at an index, is the array at that index
    with the last coordinate set to 4. -/
theorem centre4_apply (hs : Full.Slices ![0, 0, 0, 4] FullCol) (dims : Fin FullCol.rank → Fin Full.rank) (hd : dims = ![0, 1, 2, 3])
    (hb : FullCol.BroadcastsInDim Full dims) (x : Full.Idx → EReal) (i : Full.Idx) :
    broadcastInDim Full dims hb (extractStridedSlice FullCol ![0, 0, 0, 4] x hs) i
      = x (ix4 (n0 := 4) (n1 := 64) (n2 := 16384) (n3 := 9) (i 0) (i 1) (i 2) ctr) := by
  subst hd
  rw [broadcastInDim_apply _ hb (extractStridedSlice FullCol ![0, 0, 0, 4] x hs) i
    (ix4 (n0 := 4) (n1 := 64) (n2 := 16384) (n3 := 1) (i 0) (i 1) (i 2) 0) (fun a => by
    match a with
    | ⟨0, _⟩ => show (i 0).val = if (4 : Nat) = 1 then 0 else (i 0).val; rw [if_neg (by decide)]
    | ⟨1, _⟩ => show (i 1).val = if (64 : Nat) = 1 then 0 else (i 1).val; rw [if_neg (by decide)]
    | ⟨2, _⟩ => show (i 2).val = if (16384 : Nat) = 1 then 0 else (i 2).val; rw [if_neg (by decide)]
    | ⟨3, _⟩ => show 0 = if (1 : Nat) = 1 then 0 else (i 3).val; rw [if_pos rfl])]
  exact extractStridedSlice_apply ![0, 0, 0, 4] x hs (ix4 (n0 := 4) (n1 := 64) (n2 := 16384) (n3 := 1) (i 0) (i 1) (i 2) 0)
    (ix4 (n0 := 4) (n1 := 64) (n2 := 16384) (n3 := 9) (i 0) (i 1) (i 2) ctr) (fun a => by
    match a with
    | ⟨0, _⟩ => show (i 0).val = 0 + (i 0).val; omega
    | ⟨1, _⟩ => show (i 1).val = 0 + (i 1).val; omega
    | ⟨2, _⟩ => show (i 2).val = 0 + (i 2).val; omega
    | ⟨3, _⟩ => show 4 = 4 + 0; omega)

end Cert.Centre

end
-- ==== Proof.KernelBlock.lean ====
/-
  One block of the idealized kernel, and the schedule.

  At a grid point the body is handed two [4,2048,9] blocks `a`, `b` and stores `a * b[centre]` and `a[centre] * b`,
  the centre column (entry 4 of the last axis) broadcast along that axis. Grid point `t` of the 64 x 8 grid handles
  block `(t / 8, t % 8, 0)` of every window.
-/
import proofs.«164164_j44160853737973_1_alg».proof.Proof.FrameKernelIdeal
import proofs.«164164_j44160853737973_1_alg».proof.Proof.Centre

set_option maxRecDepth 16384

noncomputable section

namespace Cert.KernelIdeal.HandBlock

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.Centre

variable (m : (ℓ : Loc nD τ sig) → Buf (Elt Ideal) ℓ) (ρ : Dev nD → PrngReg)

/-! ## One block -/

theorem hz : (![0, 0, 0] : Fin 3 → Nat) = fun _ => 0 := funext fun a => by fin_cases a <;> rfl

/-- The first store's payload at `(p, q, k)`: `a(p,q,k) * b(p,q,4)`. -/
theorem payA (x0 x1 : Vec Ideal S4x2048x9 .f32) (p : Fin 4) (q : Fin 2048) (k : Fin 9) :
    k0_pay3 x0 x1 (ix3 p q k) = x0 (ix3 p q k) * x1 (ix3 p q ctr) := by
  unfold k0_pay3 k0_pay1 k0_pay2
  rw [shapeCast_self, shapeCast_self]
  show x0 (ix3 p q k) * broadcastTo S4x2048x9 (extractStridedSlice S4x2048x1 ![0, 0, 4] x1 _) _ (ix3 p q k) = _
  rw [centre_bcast_apply]

/-- The second's: `a(p,q,4) * b(p,q,k)`. -/
theorem payB (x0 x1 : Vec Ideal S4x2048x9 .f32) (p : Fin 4) (q : Fin 2048) (k : Fin 9) :
    k0_pay4 x0 x1 (ix3 p q k) = x0 (ix3 p q ctr) * x1 (ix3 p q k) := by
  unfold k0_pay4 k0_pay1 k0_pay2
  rw [shapeCast_self, shapeCast_self]
  show broadcastTo S4x2048x9 (extractStridedSlice S4x2048x1 ![0, 0, 4] x0 _) _ (ix3 p q k) * x1 (ix3 p q k) = _
  rw [centre_bcast_apply]

/-! ## The schedule -/

/-- Every window is at block `(t / 8, t % 8, 0)` at grid point `t`. -/
theorem block_of_point : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0) :=
  (by decide +kernel : ∀ t : Fin grid0.N, _)

end Cert.KernelIdeal.HandBlock

end
-- ==== Proof.KernelValue.lean ====
/-
  What each grid point of the idealized kernel writes back, as a block of one whole-array function.

  The region's inputs are two arrays `a`, `b` of shape [256,16384,9]. Grid point `t` handles block `(t / 8, t % 8, 0)`
  of every window, a [4,2048,9] box; there the body's two stores are `a * b[centre]` and `a[centre] * b` of the input
  blocks, which are the same products of the whole arrays read at the block's place, because the last axis is never
  cut. The statements about blocks are made for arbitrary arrays first and only then read at the arrays the region finds.
-/
import proofs.«164164_j44160853737973_1_alg».proof.Proof.KernelBlock
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.KernelIdeal.HandBlock Cert.Centre

variable (m : (ℓ : Loc nD τ sig) → Buf (Elt Ideal) ℓ) (ρ : Dev nD → PrngReg)

/-! ## One point, over any two arrays -/

/-- The first store's block is the block of `a * b[centre]` of the arrays the two input blocks are read from: each
    input block sits at the result block's place, and the centre of a row of the block is the centre of that row of the
    array, the last axis being whole in every block. -/
theorem blockA (A B : Rows.Idx → EReal) (t : Fin cfg0.N) :
    (cfg0.win 2).cut (grid0.coords t) (k0_pay3 (((cfg0.win 0).blk t).view.read (Elt Ideal) A) (((cfg0.win 1).blk t).view.read (Elt Ideal) B))
      = ((cfg0.win 2).blk t).view.read (Elt Ideal) (prodA3 A B) := by
  obtain ⟨⟨a0, a1, a2⟩, ⟨b0, b1, b2⟩, ⟨c0, c1, c2⟩, ⟨d0, d1, d2⟩⟩ := block_of_point t
  funext j
  obtain ⟨p, q, k, rfl⟩ : ∃ (p : Fin 4) (q : Fin 2048) (k : Fin 9), j = ix3 p q k := ⟨j 0, j 1, j 2, eq_ix3 j⟩
  refine (payA _ _ p q k).trans ?_
  rw [View.read_apply, View.read_apply, View.read_apply]
  unfold prodA3
  have hfull : ((cfg0.win 0).blk t).view.emb (ix3 p q k) = ((cfg0.win 2).blk t).view.emb (ix3 p q k) := by
    funext a; apply Fin.ext
    match a with
    | ⟨0, _⟩ => show win0_0.index t (0 : Fin 3) * 4 + 1 * p.val = win0_2.index t (0 : Fin 3) * 4 + 1 * p.val; omega
    | ⟨1, _⟩ => show win0_0.index t (1 : Fin 3) * 2048 + 1 * q.val = win0_2.index t (1 : Fin 3) * 2048 + 1 * q.val; omega
    | ⟨2, _⟩ => show win0_0.index t (2 : Fin 3) * 9 + 1 * k.val = win0_2.index t (2 : Fin 3) * 9 + 1 * k.val; omega
  have hcen : ((cfg0.win 1).blk t).view.emb (ix3 p q ctr)
      = ix3 (((cfg0.win 2).blk t).view.emb (ix3 p q k) 0) (((cfg0.win 2).blk t).view.emb (ix3 p q k) 1) ctr := by
    funext a; apply Fin.ext
    match a with
    | ⟨0, _⟩ => show win0_1.index t (0 : Fin 3) * 4 + 1 * p.val = win0_2.index t (0 : Fin 3) * 4 + 1 * p.val; omega
    | ⟨1, _⟩ => show win0_1.index t (1 : Fin 3) * 2048 + 1 * q.val = win0_2.index t (1 : Fin 3) * 2048 + 1 * q.val; omega
    | ⟨2, _⟩ => show win0_1.index t (2 : Fin 3) * 9 + 1 * 4 = 4; omega
  rw [hfull, hcen]
  rfl

/-- The same through the staging buffer: what the body leaves in the first result's buffer, cut to the part a write-back moves. -/
theorem cut_outA (A B : Rows.Idx → EReal) (t : Fin cfg0.N) :
    (cfg0.win 2).cut (grid0.coords t) (outA (((cfg0.win 0).blk t).view.read (Elt Ideal) A) (((cfg0.win 1).blk t).view.read (Elt Ideal) B))
      = ((cfg0.win 2).blk t).view.read (Elt Ideal) (prodA3 A B) := by
  unfold outA
  rw [View.canon_unit_zero hz]
  simp only [View.ld_unit_zero (S := S4x2048x9) hz]
  exact blockA A B t

/-- The second's is the block of `a[centre] * b`: again each
    input block sits at the result block's place, and the centre of a row of the block is the centre of that row of the
    array, the last axis being whole in every block. -/
theorem blockB (A B : Rows.Idx → EReal) (t : Fin cfg0.N) :
    (cfg0.win 3).cut (grid0.coords t) (k0_pay4 (((cfg0.win 0).blk t).view.read (Elt Ideal) A) (((cfg0.win 1).blk t).view.read (Elt Ideal) B))
      = ((cfg0.win 3).blk t).view.read (Elt Ideal) (prodB3 A B) := by
  obtain ⟨⟨a0, a1, a2⟩, ⟨b0, b1, b2⟩, ⟨c0, c1, c2⟩, ⟨d0, d1, d2⟩⟩ := block_of_point t
  funext j
  obtain ⟨p, q, k, rfl⟩ : ∃ (p : Fin 4) (q : Fin 2048) (k : Fin 9), j = ix3 p q k := ⟨j 0, j 1, j 2, eq_ix3 j⟩
  refine (payB _ _ p q k).trans ?_
  rw [View.read_apply, View.read_apply, View.read_apply]
  unfold prodB3
  have hfull : ((cfg0.win 1).blk t).view.emb (ix3 p q k) = ((cfg0.win 3).blk t).view.emb (ix3 p q k) := by
    funext a; apply Fin.ext
    match a with
    | ⟨0, _⟩ => show win0_1.index t (0 : Fin 3) * 4 + 1 * p.val = win0_3.index t (0 : Fin 3) * 4 + 1 * p.val; omega
    | ⟨1, _⟩ => show win0_1.index t (1 : Fin 3) * 2048 + 1 * q.val = win0_3.index t (1 : Fin 3) * 2048 + 1 * q.val; omega
    | ⟨2, _⟩ => show win0_1.index t (2 : Fin 3) * 9 + 1 * k.val = win0_3.index t (2 : Fin 3) * 9 + 1 * k.val; omega
  have hcen : ((cfg0.win 0).blk t).view.emb (ix3 p q ctr)
      = ix3 (((cfg0.win 3).blk t).view.emb (ix3 p q k) 0) (((cfg0.win 3).blk t).view.emb (ix3 p q k) 1) ctr := by
    funext a; apply Fin.ext
    match a with
    | ⟨0, _⟩ => show win0_0.index t (0 : Fin 3) * 4 + 1 * p.val = win0_3.index t (0 : Fin 3) * 4 + 1 * p.val; omega
    | ⟨1, _⟩ => show win0_0.index t (1 : Fin 3) * 2048 + 1 * q.val = win0_3.index t (1 : Fin 3) * 2048 + 1 * q.val; omega
    | ⟨2, _⟩ => show win0_0.index t (2 : Fin 3) * 9 + 1 * 4 = 4; omega
  rw [hfull, hcen]
  rfl

/-- The same through the staging buffer: what the body leaves in the second result's buffer, cut to the part a write-back moves. -/
theorem cut_outB (A B : Rows.Idx → EReal) (t : Fin cfg0.N) :
    (cfg0.win 3).cut (grid0.coords t) (outB (((cfg0.win 0).blk t).view.read (Elt Ideal) A) (((cfg0.win 1).blk t).view.read (Elt Ideal) B))
      = ((cfg0.win 3).blk t).view.read (Elt Ideal) (prodB3 A B) := by
  unfold outB
  rw [View.canon_unit_zero hz]
  simp only [View.ld_unit_zero (S := S4x2048x9) hz]
  exact blockB A B t

/-! ## What a point writes back -/

/-- Point `t` writes back, into the first result, block `t` of `a * b[centre]` of the two input arrays. -/
theorem flushedA_eq (c : Dev nD) (t : Fin cfg0.N) :
    (dats m 0 c).flushed 2 t = ((cfg0.win 2).blk t).view.read (Elt Ideal)
      (prodA3 (V m c (Pipeline.arrRef spec0 0)) (V m c (Pipeline.arrRef spec0 1))) := by
  show (cfg0.win 2).cut (grid0.coords t) ((dats m 0 c).after 2 t) = _
  rw [after_2]
  unfold iblk
  exact cut_outA (V m c (Pipeline.arrRef spec0 0)) (V m c (Pipeline.arrRef spec0 1)) t

/-- And into the second result, block `t` of `a[centre] * b`. -/
theorem flushedB_eq (c : Dev nD) (t : Fin cfg0.N) :
    (dats m 0 c).flushed 3 t = ((cfg0.win 3).blk t).view.read (Elt Ideal)
      (prodB3 (V m c (Pipeline.arrRef spec0 0)) (V m c (Pipeline.arrRef spec0 1))) := by
  show (cfg0.win 3).cut (grid0.coords t) ((dats m 0 c).after 3 t) = _
  rw [after_3]
  unfold iblk
  exact cut_outB (V m c (Pipeline.arrRef spec0 0)) (V m c (Pipeline.arrRef spec0 1)) t

end Cert.KernelIdeal.HandValue

end
-- ==== Proof.KernelFinal.lean ====
/-
  From blocks to arrays: the two result arrays of the idealized kernel after the run.

  The 64 x 8 grid's 512 blocks of shape [4,2048,9] tile [256,16384,9]: entry `(r, l, j)` lies in the block of the
  point `t = (r / 4) * 8 + l / 2048`, and of no other. Each point writes back the block of `a * b[centre]`
  (resp. `a[centre] * b`) of the two input arrays, so after the last point each result array IS that product.
-/
import proofs.«164164_j44160853737973_1_alg».proof.Proof.KernelValue
import Idealize.ShloMosaic.Lib.Pipeline.Value

set_option maxRecDepth 16384

noncomputable section

namespace Cert.KernelIdeal.HandFinal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.KernelIdeal.HandBlock Cert.KernelIdeal.HandValue Cert.Centre

variable (m : (ℓ : Loc nD τ sig) → Buf (Elt Ideal) ℓ) (ρ : Dev nD → PrngReg)

/-! ## The blocks tile the arrays -/

/-- An entry is in point `t`'s block of the first result iff each coordinate is in the block's range on its axis. -/
theorem mem_blkA (t : Fin cfg0.N) (i : S256x16384x9.Idx) :
    i ∈ ((cfg0.win 2).blk t).view.set ↔ ∀ a : Fin 3, win0_2.index t a * S4x2048x9.size a ≤ (i a).val
      ∧ (i a).val < win0_2.index t a * S4x2048x9.size a + S4x2048x9.size a := by
  show i ∈ ((View.whole main_v46_0).slice (win0_2.rect t)).set ↔ _
  rw [View.set_slice_whole, Rect.mem_set_unit]
  exact Iff.rfl

/-- The same for the second result. -/
theorem mem_blkB (t : Fin cfg0.N) (i : S256x16384x9.Idx) :
    i ∈ ((cfg0.win 3).blk t).view.set ↔ ∀ a : Fin 3, win0_3.index t a * S4x2048x9.size a ≤ (i a).val
      ∧ (i a).val < win0_3.index t a * S4x2048x9.size a + S4x2048x9.size a := by
  show i ∈ ((View.whole main_v46_1).slice (win0_3.rect t)).set ↔ _
  rw [View.set_slice_whole, Rect.mem_set_unit]
  exact Iff.rfl

/-- The point whose blocks hold entry `(r, l, j)`: `(r / 4) * 8 + l / 2048`. -/
theorem point_of (i : S256x16384x9.Idx) : ∃ t : Fin cfg0.N, t.val = (i 0).val / 4 * 8 + (i 1).val / 2048 := by
  have h0 : (i 0).val < 256 := (i 0).isLt
  have h1 : (i 1).val < 16384 := (i 1).isLt
  exact ⟨⟨(i 0).val / 4 * 8 + (i 1).val / 2048, by show _ < grid0.N; rw [N_0]; omega⟩, rfl⟩

/-- Every entry of the first result is in some point's block. -/
theorem coverA (i : S256x16384x9.Idx) :
    ∃ t : Fin cfg0.N, (cfg0.win 2).flush t = true ∧ i ∈ ((cfg0.win 2).blk t).view.set := by
  have h0 : (i 0).val < 256 := (i 0).isLt
  have h1 : (i 1).val < 16384 := (i 1).isLt
  have h2 : (i 2).val < 9 := (i 2).isLt
  obtain ⟨t, ht⟩ := point_of i
  obtain ⟨-, -, ⟨c0, c1, c2⟩, -⟩ := block_of_point t
  refine ⟨t, flush0_2 t, ?_⟩
  rw [mem_blkA]
  intro a
  match a with
  | ⟨0, _⟩ => show win0_2.index t (0 : Fin 3) * 4 ≤ (i 0).val ∧ (i 0).val < win0_2.index t (0 : Fin 3) * 4 + 4; rw [c0, ht]; omega
  | ⟨1, _⟩ => show win0_2.index t (1 : Fin 3) * 2048 ≤ (i 1).val ∧ (i 1).val < win0_2.index t (1 : Fin 3) * 2048 + 2048; rw [c1, ht]; omega
  | ⟨2, _⟩ => show win0_2.index t (2 : Fin 3) * 9 ≤ (i 2).val ∧ (i 2).val < win0_2.index t (2 : Fin 3) * 9 + 9; rw [c2]; omega

/-- And of the second. -/
theorem coverB (i : S256x16384x9.Idx) :
    ∃ t : Fin cfg0.N, (cfg0.win 3).flush t = true ∧ i ∈ ((cfg0.win 3).blk t).view.set := by
  have h0 : (i 0).val < 256 := (i 0).isLt
  have h1 : (i 1).val < 16384 := (i 1).isLt
  have h2 : (i 2).val < 9 := (i 2).isLt
  obtain ⟨t, ht⟩ := point_of i
  obtain ⟨-, -, -, ⟨d0, d1, d2⟩⟩ := block_of_point t
  refine ⟨t, flush0_3 t, ?_⟩
  rw [mem_blkB]
  intro a
  match a with
  | ⟨0, _⟩ => show win0_3.index t (0 : Fin 3) * 4 ≤ (i 0).val ∧ (i 0).val < win0_3.index t (0 : Fin 3) * 4 + 4; rw [d0, ht]; omega
  | ⟨1, _⟩ => show win0_3.index t (1 : Fin 3) * 2048 ≤ (i 1).val ∧ (i 1).val < win0_3.index t (1 : Fin 3) * 2048 + 2048; rw [d1, ht]; omega
  | ⟨2, _⟩ => show win0_3.index t (2 : Fin 3) * 9 ≤ (i 2).val ∧ (i 2).val < win0_3.index t (2 : Fin 3) * 9 + 9; rw [d2]; omega

/-! ## The result arrays -/

/-- After the last point the first result array is `a * b[centre]` of the two input arrays. -/
theorem finalA (c : Dev nD) :
    (dats m 0 c).arrAt 2 cfg0.N = prodA3 (V m c (Pipeline.arrRef spec0 0)) (V m c (Pipeline.arrRef spec0 1)) :=
  (dats m 0 c).arrAt_eq_of_cover 2 _ (fun t _ => flushedA_eq m c t) coverA

/-- And the second `a[centre] * b`. -/
theorem finalB (c : Dev nD) :
    (dats m 0 c).arrAt 3 cfg0.N = prodB3 (V m c (Pipeline.arrRef spec0 0)) (V m c (Pipeline.arrRef spec0 1)) :=
  (dats m 0 c).arrAt_eq_of_cover 3 _ (fun t _ => flushedB_eq m c t) coverB

end Cert.KernelIdeal.HandFinal

end
-- ==== Proof.KernelEntry.lean ====
/-
  The two arrays the region reads, as the reference's own stages of the arguments.

  Up to the region the kernel's @main applies to each argument exactly the operations the reference applies: pad by one
  on the two spatial axes, the nine shifted slices stacked, two reshapes. So the array [256,16384,9] the region finds
  for the key is the reference's unfolded key `U(key)` read row-major with its two leading axes merged, and the same
  for the query.
-/
import proofs.«164164_j44160853737973_1_alg».proof.Proof.FrameKernelIdeal
import proofs.«164164_j44160853737973_1_alg».proof.Proof.Gen.ReferenceIdeal.Read
import Idealize.ShloMosaic.PureOps.Ideal

set_option maxRecDepth 16384

noncomputable section

namespace Cert.KernelIdeal.HandEntry

open Idealize.ShloMosaic Idealize.ShloMosaic.TcCoe Idealize.ShloMosaic.StableHlo
open Idealize.SL Idealize.SL.Sem
open Cert.KernelIdeal Cert.KernelIdeal.Gen Cert.KernelIdeal.Hand

variable (m : (ℓ : Loc nD τ sig) → Buf (Elt Ideal) ℓ)

set_option maxHeartbeats 2000000 in
/-- The first input array of the region is the unfolded key with its leading axes merged. -/
theorem entry_key (c : Dev nD) :
    V m c main_v44 = shapeCast S256x16384x9 (Cert.ReferenceIdeal.Read.val_main_v21 (F := Ideal) (m ((c : Thread nD τ).loc main_arg0)))
      Facts₀.shapeCasts_S4x64x16384x9_S256x16384x9 := by
  show StableHlo.after (List.flatten hostBefore) (fun b => m (c, b)) (Proc.devRef .tc main_v44) = _
  simp only [hostBefore, hostOps0, hostOps0_1, hostOps0_2, hostOps0_3, hostOps0_4, List.flatten_cons, List.flatten_nil, List.append_nil,
    List.cons_append, List.nil_append]
  after_results_simp
  rfl

set_option maxHeartbeats 2000000 in
/-- The second is the unfolded query, likewise. -/
theorem entry_query (c : Dev nD) :
    V m c main_v45 = shapeCast S256x16384x9 (Cert.ReferenceIdeal.Read.val_main_v43 (F := Ideal) (m ((c : Thread nD τ).loc main_arg1)))
      Facts₀.shapeCasts_S4x64x16384x9_S256x16384x9 := by
  show StableHlo.after (List.flatten hostBefore) (fun b => m (c, b)) (Proc.devRef .tc main_v45) = _
  simp only [hostBefore, hostOps0, hostOps0_1, hostOps0_2, hostOps0_3, hostOps0_4, List.flatten_cons, List.flatten_nil, List.append_nil,
    List.cons_append, List.nil_append]
  after_results_simp
  rfl

end Cert.KernelIdeal.HandEntry

end
-- ==== Proof.KernelRun.lean ====
/-
  The idealized kernel's run, read: its two results as centre-column products of the two unfolded arrays.

  The region's inputs are the unfolded key and query read row-major as [256,16384,9]; its result arrays are the two
  centre-column products of those; and the two reshapes after the region read each result back as [4,64,16384,9].
  The products commute with that change of layout (the last two axes are untouched and the two leading axes are merged
  row-major), so each of @main's results is the product of the unfolded arrays in the reference's own layout.
-/
import proofs.«164164_j44160853737973_1_alg».proof.Proof.KernelFinal
import proofs.«164164_j44160853737973_1_alg».proof.Proof.KernelEntry
import Idealize.ShloMosaic.Lib.StableHlo.Run

set_option maxRecDepth 16384

noncomputable section

namespace Cert.KernelIdeal.HandRun

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Hand Cert.KernelIdeal.HandValue Cert.KernelIdeal.HandFinal
open Cert.KernelIdeal.HandEntry Cert.Centre

variable (m : (ℓ : Loc nD τ sig) → Buf (Elt Ideal) ℓ) (ρ : Dev nD → PrngReg)

/-- The unfolded key, as a function of the first argument. -/
abbrev ukey (c : Dev nD) : Full.Idx → EReal :=
  Cert.ReferenceIdeal.Read.val_main_v21 (F := Ideal) (m ((c : Thread nD τ).loc main_arg0))
/-- The unfolded query, as a function of the second. -/
abbrev uquery (c : Dev nD) : Full.Idx → EReal :=
  Cert.ReferenceIdeal.Read.val_main_v43 (F := Ideal) (m ((c : Thread nD τ).loc main_arg1))

/-! ## After the region -/

/-- @main's first result is the region's first result array read as [4,64,16384,9]. -/
theorem tailA (c : Dev nD) :
    Pipeline.afterTail₀ cfgs (dats m) 0 (V0 m) hostAfter c main_v47
      = shapeCast S4x64x16384x9 ((dats m 0 c).arrAt 2 cfg0.N) Facts₀.shapeCasts_S256x16384x9_S4x64x16384x9 := by
  unfold Pipeline.afterTail₀
  show StableHlo.after hostOps1 _ (Proc.devRef .tc main_v47) = _
  after_results
  exact congrArg (fun x => shapeCast S4x64x16384x9 x Facts₀.shapeCasts_S256x16384x9_S4x64x16384x9)
    (Pipeline.withArrays_arr spec0 launch0.win.arr_inj c _ _ 2)

/-- And its second the region's second. -/
theorem tailB (c : Dev nD) :
    Pipeline.afterTail₀ cfgs (dats m) 0 (V0 m) hostAfter c main_v48
      = shapeCast S4x64x16384x9 ((dats m 0 c).arrAt 3 cfg0.N) Facts₀.shapeCasts_S256x16384x9_S4x64x16384x9 := by
  unfold Pipeline.afterTail₀
  show StableHlo.after hostOps1 _ (Proc.devRef .tc main_v48) = _
  after_results
  exact congrArg (fun x => shapeCast S4x64x16384x9 x Facts₀.shapeCasts_S256x16384x9_S4x64x16384x9)
    (Pipeline.withArrays_arr spec0 launch0.win.arr_inj c _ _ 3)

/-! ## The results -/

/-- @main's first result: `U(key) * U(query)[centre]`. -/
theorem resultA (c : Dev nD) :
    Pipeline.afterTail₀ cfgs (dats m) 0 (V0 m) hostAfter c main_v47 = prodA4 (ukey m c) (uquery m c) := by
  rw [tailA, finalA]
  show shapeCast Full (prodA3 (V m c main_v44) (V m c main_v45)) _ = _
  rw [entry_key, entry_query]
  exact prodA_layout _ _ _ _

/-- Its second: `U(key)[centre] * U(query)`. -/
theorem resultB (c : Dev nD) :
    Pipeline.afterTail₀ cfgs (dats m) 0 (V0 m) hostAfter c main_v48 = prodB4 (ukey m c) (uquery m c) := by
  rw [tailB, finalB]
  show shapeCast Full (prodB3 (V m c main_v44) (V m c main_v45)) _ = _
  rw [entry_key, entry_query]
  exact prodB_layout _ _ _ _

/-- Every weakly fair execution of the idealized kernel's @main terminates with its two results at the two
    centre-column products of the unfolded arguments, and the arguments unchanged. -/
theorem run : θ_run defs (onTc (τ := τ) (main (F := Ideal))) ⟨m, fun _ => 0, ρ⟩ fun r => ∀ c : Dev nD,
      r.2.mem ((c.tc : Thread nD τ).loc main_v47) = prodA4 (ukey m c) (uquery m c)
      ∧ r.2.mem ((c.tc : Thread nD τ).loc main_v48) = prodB4 (ukey m c) (uquery m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v47 (Pipeline.mem_restRefs_of main_v47 (by decide) (by decide))).trans (resultA m c),
     ((h c).2 main_v48 (Pipeline.mem_restRefs_of main_v48 (by decide) (by decide))).trans (resultB m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.HandRun

end
-- ==== Proof.RefValue.lean ====
/-
  The reference's two results as the centre-column products of the two unfolded arrays.

  The reference multiplies the unfolded key `U(key)` by the query's centre column — entry 4 of the last axis, sliced
  out and broadcast back along that axis — and the key's centre column by the unfolded query `U(query)`. Read at an
  index `(b, ch, l, j)` these are `U(key)(b,ch,l,j) * U(query)(b,ch,l,4)` and `U(key)(b,ch,l,4) * U(query)(b,ch,l,j)`.
-/
import proofs.«164164_j44160853737973_1_alg».proof.Proof.Centre
import proofs.«164164_j44160853737973_1_alg».proof.Proof.Gen.ReferenceIdeal.Read
import Idealize.ShloMosaic.PureOps.Ideal

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Centre

/-- The first result: the unfolded key times the unfolded query's centre column. -/
theorem out0_eq (x0 x1 : (⟨S4x64x128x128, .f32⟩ : BufTy).Contents (Elt Ideal)) :
    val_main_v46 (F := Ideal) x0 x1 = prodA4 (val_main_v21 (F := Ideal) x0) (val_main_v43 (F := Ideal) x1) := by
  funext i
  rw [val_main_v46_apply]
  unfold val_main_v45 val_main_v44 prodA4
  rw [centre4_apply _ _ rfl]
  rfl

/-- The second: the unfolded key's centre column times the unfolded query. -/
theorem out1_eq (x0 x1 : (⟨S4x64x128x128, .f32⟩ : BufTy).Contents (Elt Ideal)) :
    val_main_v49 (F := Ideal) x0 x1 = prodB4 (val_main_v21 (F := Ideal) x0) (val_main_v43 (F := Ideal) x1) := by
  funext i
  rw [val_main_v49_apply]
  unfold val_main_v48 val_main_v47 prodB4
  rw [centre4_apply _ _ rfl]
  rfl

end Cert.ReferenceIdeal.RefValue

end
-- ==== Proof.lean ====
/-
  A 3x3 local correlation: the kernel against its jnp reference, equal over the extended reals.

  Both programs unfold each [4,64,128,128] argument into its nine shifted 128x128 views of the zero-padded array and
  read the stack row-major as [4,64,16384,9]; call the results `U(key)`, `U(query)`. The reference returns
  `U(key) * U(query)[..., 4:5]` and `U(key)[..., 4:5] * U(query)`, the centre column broadcast along the last axis.
  The kernel merges the two leading axes ([256,16384,9]), computes the same two products block by block on a 64 x 8
  grid of [4,2048,9] blocks, and splits the leading axis again. Entry by entry both programs multiply the same two
  numbers in the same order, so no algebraic law and no finiteness is used: the two sides are one function of the
  arguments. The ideal pass rewrote nothing, so the kernel's idealization is its own text and `preserves` is trivial.
  The frames: each program runs to the end, faults nowhere, and leaves its two arguments as launched.
-/
import proofs.«164164_j44160853737973_1_alg».proof.Defs
import proofs.«164164_j44160853737973_1_alg».proof.Proof.Gen.Kernel
import proofs.«164164_j44160853737973_1_alg».proof.Proof.Gen.Kernel.Skeleton
import proofs.«164164_j44160853737973_1_alg».proof.Proof.Gen.Kernel.Launch
import proofs.«164164_j44160853737973_1_alg».proof.Proof.Gen.Kernel.Points
import proofs.«164164_j44160853737973_1_alg».proof.Proof.Gen.KernelIdeal
import proofs.«164164_j44160853737973_1_alg».proof.Proof.Gen.KernelIdeal.Skeleton
import proofs.«164164_j44160853737973_1_alg».proof.Proof.Gen.KernelIdeal.Launch
import proofs.«164164_j44160853737973_1_alg».proof.Proof.Gen.KernelIdeal.Points
import proofs.«164164_j44160853737973_1_alg».proof.Proof.Gen.ReferenceIdeal
import proofs.«164164_j44160853737973_1_alg».proof.Proof.Gen.Pre_finite_inputs
import proofs.«164164_j44160853737973_1_alg».proof.Proof.Gen.ReferenceIdeal.Run
import proofs.«164164_j44160853737973_1_alg».proof.Proof.Gen.ReferenceIdeal.Read
import proofs.«164164_j44160853737973_1_alg».proof.Proof.FrameKernel
import proofs.«164164_j44160853737973_1_alg».proof.Proof.FrameKernelIdeal
import proofs.«164164_j44160853737973_1_alg».proof.Proof.KernelRun
import proofs.«164164_j44160853737973_1_alg».proof.Proof.RefValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, both programs end with `U(key) * U(query)[centre]` and `U(key)[centre] * U(query)`. -/
theorem algebraic : Cert.algebraic_KernelIdeal_ReferenceIdeal := by
  intro m ρ m' ρ' _ hagree
  refine ⟨fun c => Cert.Centre.prodA4 (Cert.KernelIdeal.HandRun.ukey m c) (Cert.KernelIdeal.HandRun.uquery m c),
    fun c => Cert.Centre.prodB4 (Cert.KernelIdeal.HandRun.ukey m c) (Cert.KernelIdeal.HandRun.uquery m c),
    Cert.KernelIdeal.HandRun.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v46_eq, Cert.ReferenceIdeal.RefValue.out0_eq, (hagree c).1, (hagree c).2]
  · rw [Cert.ReferenceIdeal.Read.val_main_v49_eq, Cert.ReferenceIdeal.RefValue.out1_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
